-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S1024x4096 : Shape := ⟨2, ![1024, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S16384x4096 .f32) (main_arg1 : FVec F S1024x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Kernel.lean ====
abbrev S16384x4096 : Shape := ⟨2, ![16384, 4096]⟩
abbrev S1024x4096 : Shape := ⟨2, ![1024, 4096]⟩
abbrev S16384x1024 : Shape := ⟨2, ![16384, 1024]⟩
abbrev S512x4096 : Shape := ⟨2, ![512, 4096]⟩
abbrev S512x1024 : Shape := ⟨2, ![512, 1024]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S1024x4096, .f32⟩
  | .hbm, ⟨2, _⟩ => ⟨S1024x4096, .bf16⟩
  | .hbm, ⟨3, _⟩ => ⟨S16384x1024, .f32⟩
  | .local _ .vmem, ⟨0, _⟩ => ⟨S512x4096, .f32⟩
  | .local _ .vmem, ⟨1, _⟩ => ⟨S512x4096, .f32⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c512_i32 : BitVec 32 := 512#32
  let v0 : BitVec 32 := Scalar.muli c0_i32 c512_i32
  v0
def k0_off1 (c0_i32 : BitVec 32) : Fin 2 → Nat :=
  let c0 : Index := 0#32
  let c512_i32 : BitVec 32 := 512#32
  let v0 : BitVec 32 := Scalar.muli c0_i32 c512_i32
  let v1 : BitVec 32 := v0
  let v2 : Index := Scalar.indexCast v1
  ![0, v2.toNat]
def k0_mult2 : BitVec 32 :=
  let c1_i32 : BitVec 32 := 1#32
  let c512_i32_1 : BitVec 32 := 512#32
  let v9 : BitVec 32 := Scalar.muli c1_i32 c512_i32_1
  v9
def k0_mult3 : BitVec 32 :=
  let c2_i32 : BitVec 32 := 2#32
  let c512_i32_4 : BitVec 32 := 512#32
  let v18 : BitVec 32 := Scalar.muli c2_i32 c512_i32_4
  v18
def k0_mult4 : BitVec 32 :=
  let c3_i32 : BitVec 32 := 3#32
  let c512_i32_7 : BitVec 32 := 512#32
  let v27 : BitVec 32 := Scalar.muli c3_i32 c512_i32_7
  v27
def k0_mult5 : BitVec 32 :=
  let c4_i32 : BitVec 32 := 4#32
  let c512_i32_10 : BitVec 32 := 512#32
  let v36 : BitVec 32 := Scalar.muli c4_i32 c512_i32_10
  v36
def k0_mult6 : BitVec 32 :=
  let c5_i32 : BitVec 32 := 5#32
  let c512_i32_13 : BitVec 32 := 512#32
  let v45 : BitVec 32 := Scalar.muli c5_i32 c512_i32_13
  v45
def k0_mult7 : BitVec 32 :=
  let c6_i32 : BitVec 32 := 6#32
  let c512_i32_16 : BitVec 32 := 512#32
  let v54 : BitVec 32 := Scalar.muli c6_i32 c512_i32_16
  v54
def k0_mult8 : BitVec 32 :=
  let c7_i32 : BitVec 32 := 7#32
  let c512_i32_19 : BitVec 32 := 512#32
  let v63 : BitVec 32 := Scalar.muli c7_i32 c512_i32_19
  v63
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  h_S512x512 : 0 < S512x512.numel
  shapeCasts_S512x512_S512x512 : S512x512.ShapeCasts S512x512
  inb_S512x4096_S512x4096_0_0 : ∀ a, (![0, 0] : Fin 2 → Nat) a + S512x4096.size a ≤ S512x4096.size a
  h_S512x4096 : 0 < S512x4096.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1024_S512x1024_0_0 : ∀ a, (![0, 0] : Fin 2 → Nat) a + S512x1024.size a ≤ S512x1024.size a
  h_S512x1024 : 0 < S512x1024.numel
  dot_S512x4096_S1024x4096_S512x1024_1_1_0_0_n_n_wf : DotDims.WF S512x4096 S1024x4096 S512x1024 [1] [1] [0] [0] [] []
  hrank0 : 0 < grid0.rank
  k0_mult1_dvd : 512 ∣ k0_mult1.toNat
  k0_off1_inb : ∀ (r : Fin 8), ∀ a, (k0_off1 (BitVec.ofNat 32 r.val)) a + S512x512.size a ≤ S512x4096.size a
  k0_off1_packedbf16 : ∀ (r : Fin 8), (Rect.unit (s := S512x4096) (k0_off1 (BitVec.ofNat 32 r.val)) S512x512.size (k0_off1_inb r)).PackedRows (EltTy.packing .bf16)
  k0_mult2_dvd : 512 ∣ k0_mult2.toNat
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S1024x4096 : Shape := ⟨2, ![1024, 4096]⟩
abbrev S4096x1024 : Shape := ⟨2, ![4096, 1024]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1024x4096, .f32⟩
  | .hbm, ⟨2, _⟩ => ⟨S4096x1024, .f32⟩
  | .hbm, ⟨3, _⟩ => ⟨S16384x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S1024x4096_S4096x1024_1_0 : S1024x4096.Transposes [1, 0] S4096x1024
  dot_S16384x4096_S4096x1024_S16384x1024_1_0_0_1_n_n_wf : DotDims.WF S16384x4096 S4096x1024 S16384x1024 [1] [0] [0] [1] [] []

variable [Facts₀]

def dot_S16384x4096_S4096x1024_S16384x1024_1_0_0_1_n_n : DotDims S16384x4096 S4096x1024 S16384x1024 where
  lhsContracting := [1]
  rhsContracting := [0]
  lhsNonContracting := [0]
  rhsNonContracting := [1]
  lhsBatch := []
  rhsBatch := []
  wf := dot_S16384x4096_S4096x1024_S16384x1024_1_0_0_1_n_n_wf

class Facts : Prop extends Facts₀ where

variable [Facts]
-- ==== Proof.KernelBlock.lean ====
/-
  What the kernel body leaves in its output block, as one term of the two input blocks.

  The body copies the f32 row block `x` (512 × 4096) into a bf16 scratch buffer eight column bands at a time
  (band n holds columns 512·n … 512·n + 511, each entry narrowed to bf16), reads the scratch buffer back whole, and
  stores the product of that copy with the whole of the second operand, contracted on both last axes, into the
  output block. The eight bands tile the scratch buffer, and each band's entries are the narrowing of the entries
  of `x` under it; so the buffer read back is the narrowing of `x`, entry by entry, and the stored block is the
  product of the narrowed `x` with the second operand. This holds at every float instance.
-/
import proofs.«171840_j8409545965787_2_alg».proof.Proof.Gen.KernelIdeal.Frame
import Idealize.ShloMosaic.Lib.Pipeline.Value
import Idealize.ShloMosaic.Lib.Tactic

set_option maxRecDepth 16384

noncomputable section

namespace Cert.KernelIdeal.Block

open Cert.KernelIdeal Cert.KernelIdeal.Gen Idealize.ShloMosaic Idealize.ShloMosaic.TcCoe Idealize.SL.Sem
open Idealize.ShloMosaic.Tactic

variable {F : FTy → Type} [FloatOps F]

/-- The zero offsets of a rank-2 rectangle, however they are spelt. -/
theorem zero_offsets : (![0, 0] : Fin 2 → Nat) = fun _ => 0 := funext fun a => by fin_cases a <;> rfl

/-- The eight band stores into the scratch buffer tile it: every index lies under one of them. -/
theorem bands_cover (c : Dev nD) (arg1 : Memref sig .tc .vmem S512x4096 .f32) (harg1 : arg1.IsWhole)
    (x0 : Vec F S512x4096 .f32) (y : S512x4096.Idx) :
    ∃ p ∈ kernelRun0_A.sl.HS0_8 c arg1 harg1 x0, y ∈ p.1.set :=
  View.cover_of_tiledL (s := S512x4096) _ ![512, 512] (by sl_kernel_rfl) y

/-- A band of `x0` loaded through a 512 × 512 rectangle, narrowed, and cast to its own shape is, entry by entry,
    the narrowing of `x0` at the array index the rectangle puts the entry at. -/
theorem narrow_band (arg1 : Memref sig .tc .vmem S512x4096 .f32) (harg1 : arg1.IsWhole) (x0 : Vec F S512x4096 .f32)
    (off : Fin 2 → ℕ) (inb : ∀ a, off a + S512x512.size a ≤ S512x4096.size a) (x : S512x512.Idx) :
    shapeCast S512x512 (truncf .bf16
        (View.readAt (Elt F) arg1.view (Rect.unit (s := S512x4096) off S512x512.size inb).toLoadRect (harg1.unread x0))
        Facts₀.bitsLt_bf16_f32) Facts₀.shapeCasts_S512x512_S512x512 x
      = truncf .bf16 x0 Facts₀.bitsLt_bf16_f32 ((Rect.unit (s := S512x4096) off S512x512.size inb).emb x) := by
  refine (congrFun (shapeCast_self (s := S512x512) _ Facts₀.shapeCasts_S512x512_S512x512) x).trans ?_
  show FloatOps.truncf .bf16 Facts₀.bitsLt_bf16_f32
      (arg1.view.read (Elt F) (harg1.unread x0) ((Rect.unit (s := S512x4096) off S512x512.size inb).idx x)) = _
  rw [harg1.read_unread]
  rfl

/-- Every band store's payload is the narrowing of the entries of `x0` the band lies over. -/
theorem bands_narrow (c : Dev nD) (arg1 : Memref sig .tc .vmem S512x4096 .f32) (harg1 : arg1.IsWhole)
    (x0 : Vec F S512x4096 .f32) :
    ∀ p ∈ kernelRun0_A.sl.HS0_8 c arg1 harg1 x0, ∀ x : p.1.shape.Idx,
      p.2 x = truncf .bf16 x0 Facts₀.bitsLt_bf16_f32 (p.1.emb x) := by
  intro p hp x
  unfold kernelRun0_A.sl.HS0_8 at hp
  simp only [List.mem_cons, List.mem_nil_iff, or_false] at hp
  rcases hp with rfl | rfl | rfl | rfl | rfl | rfl | rfl | rfl
  · exact narrow_band arg1 harg1 x0 _ _ x
  · exact narrow_band arg1 harg1 x0 _ _ x
  · exact narrow_band arg1 harg1 x0 _ _ x
  · exact narrow_band arg1 harg1 x0 _ _ x
  · exact narrow_band arg1 harg1 x0 _ _ x
  · exact narrow_band arg1 harg1 x0 _ _ x
  · exact narrow_band arg1 harg1 x0 _ _ x
  · exact narrow_band arg1 harg1 x0 _ _ x

/-- The scratch buffer read back whole after the eight band stores is `x0` narrowed to bf16, entry by entry. -/
theorem scratch_readback (c : Dev nD) (arg1 : Memref sig .tc .vmem S512x4096 .f32) (harg1 : arg1.IsWhole)
    (arg4 : Memref sig .tc .vmem S512x4096 .bf16) (x0 : Vec F S512x4096 .f32) :
    kernelRun0_A.sl.v72 c arg1 harg1 arg4 x0 = truncf .bf16 x0 Facts₀.bitsLt_bf16_f32 := by
  unfold kernelRun0_A.sl.v72
  rw [View.readCov_eq_canon_ld _ _ _ (bands_cover c arg1 harg1 x0), View.ld_unit_zero zero_offsets]
  funext y
  exact View.canon_apply_of_pieces (Val := Elt F) (fun y => truncf .bf16 x0 Facts₀.bitsLt_bf16_f32 y) _
    (bands_narrow c arg1 harg1 x0) y (bands_cover c arg1 harg1 x0 y)

/-- The second operand's block loaded whole is the block. -/
theorem operand_load (c : Dev nD) (arg2 : Memref sig .tc .vmem S1024x4096 .bf16) (harg2 : arg2.IsWhole)
    (x1 : Vec F S1024x4096 .bf16) : kernelRun0_A.sl.r c arg2 harg2 x1 = x1 := by
  unfold kernelRun0_A.sl.r
  rw [View.readAt_eq_ld, harg2.read_unread, View.ld_unit_zero zero_offsets]

/-- The output block after the body: the product, contracted on both last axes into a zero accumulator, of the
    row block `x0` narrowed to bf16 with the second operand's block `x1`. -/
theorem block_value (c : Dev nD) (i : grid0.Coords) (arg1 : Memref sig .tc .vmem S512x4096 .f32) (harg1 : arg1.IsWhole)
    (arg2 : Memref sig .tc .vmem S1024x4096 .bf16) (harg2 : arg2.IsWhole)
    (arg3 : Memref sig .tc .vmem S512x1024 .f32) (harg3 : arg3.IsWhole)
    (arg4 : Memref sig .tc .vmem S512x4096 .bf16) (harg4 : arg4.IsWhole)
    (x0 : Vec F S512x4096 .f32) (x1 : Vec F S1024x4096 .bf16) :
    out0_A_2 c i arg1 harg1 arg2 harg2 arg3 harg3 arg4 harg4 x0 x1
      = k0_pay1 (truncf .bf16 x0 Facts₀.bitsLt_bf16_f32) x1 := by
  unfold out0_A_2
  rw [View.read_writes_eq_canon _ _ _ (cover0_A_2 c i arg1 harg1 arg2 harg2 arg3 harg3 arg4 harg4 x0 x1)]
  unfold kernelRun0_A
  dsimp only
  rw [View.canon_unit_zero zero_offsets, scratch_readback, operand_load]

end Cert.KernelIdeal.Block

end
-- ==== Proof.LibGram.lean ====
/-
  Three array forms read at an index written by coordinates, at the ideal instance (floats are extended reals).

  * A matrix product contracted on BOTH operands' last axes, `[M, K] × [N, K] → [M, N]` (a Gram matrix `X · Xᵀ` when the
    two operands are one array), into the zero accumulator: entry `(r, c)` is `∑ k, L (r, k) · R (c, k)`.
  * The sum of a column `[a, 1]` over its first axis, into `[1]`, from the neutral word: `∑ k, v (k, 0)`.
  * A `[1, 1]` value broadcast to `[a, b]`: every entry is the one value.
  Imports only the library.
-/
import Idealize.ShloMosaic.PureOps.Ideal.Laws
import Idealize.ShloMosaic.Lib.ValueIdx
import Idealize.ShloMosaic.Lib.Pipeline.Value

namespace Cert.LibGram

open Idealize.ShloMosaic Idealize.ShloMosaic.ValueIdx

variable {M K N : ℕ}

/-- The left operand's index keeps the output's row. -/
theorem lhsIdx_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's index takes the contraction position as its column. -/
theorem lhsIdx_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's index takes the output's column as its row. -/
theorem rhsIdx_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's index takes the contraction position as its column. -/
theorem rhsIdx_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- A product contracted on both last axes into the zero accumulator, at `(r, c)`: `∑ k, L (r, k) · R (c, k)`. -/
theorem matmul_transposedRhs_zero_apply {φ₁ φ₂ : FTy} (prec : Option ContractPrecision)
    (L : FVec Ideal ⟨2, ![M, K]⟩ φ₁) (R : FVec Ideal ⟨2, ![N, K]⟩ φ₂) (r : Fin M) (c : Fin N) :
    FloatOps.matmul (DotDims.transposedRhs M K N) prec L R (constant ⟨2, ![M, N]⟩ .f32 0x00000000#32) (ix2 r c)
      = ∑ k : Fin K, L (ix2 r k) * R (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact lhsIdx_row _ _
      | ⟨1, _⟩ => exact (lhsIdx_col _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact rhsIdx_row _ _
      | ⟨1, _⟩ => exact (rhsIdx_col _ _).trans hk)
  rw [el, er]

variable {a b : ℕ}

/-- The reduced index `0` with the row `k` put back is `(k, 0)`. -/
theorem lift_first (h : (⟨2, ![a, 1]⟩ : Shape).Reduces [0] ⟨1, ![1]⟩) (u : Fin 1) (k : Fin a) :
    h.lift (ix1 u) k = ix2 k (0 : Fin 1) :=
  funext fun c => Fin.ext (by
    match c with
    | ⟨0, _⟩ => rfl
    | ⟨1, _⟩ =>
      have h1 : ((h.lift (ix1 u) k) 1).val < 1 := idx2_lt1 _
      show ((h.lift (ix1 u) k) 1).val = 0
      omega)

/-- A column summed over its first axis from the neutral word: `∑ k, v (k, 0)`. -/
theorem colSum_apply {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ k : Fin a, src (ix2 k (0 : Fin 1)) :=
  (Ideal.multiReduction_add_single src acc h hφ hacc (ix1 u)).trans
    (Finset.sum_congr rfl fun k _ => congrArg src (lift_first h u k))

variable {α : Type}

/-- A `[1, 1]` value broadcast to `[a, b]` reads, everywhere, the one value. -/
theorem broadcastTo_11_ab_apply (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibGram
-- ==== Proof.RowsAgainstRows.lean ====
/-
  The specification both programs meet: the rows of `x` (16384 × 4096) against the rows of `Φ` (1024 × 4096),

      (x · Φᵀ)(i, j) = ∑ k < 4096, x(i, k) · Φ(j, k),

  read on the extended reals. No program is imported here: the function is stated over the literal shapes, with
  indices written by coordinates.
-/
import Idealize.ShloMosaic.PureOps.Ideal
import Idealize.ShloMosaic.Lib.ValueIdx

noncomputable section

namespace Cert.RowsAgainstRows

open Idealize.ShloMosaic Idealize.ShloMosaic.ValueIdx

/-- Entry `(i, j)` of `x · Φᵀ`: the sum over the 4096 columns of row `i` of `x` times row `j` of `Φ`. -/
def product (x : FVec Ideal ⟨2, ![16384, 4096]⟩ .f32) (phi : FVec Ideal ⟨2, ![1024, 4096]⟩ .f32) :
    FVec Ideal ⟨2, ![16384, 1024]⟩ .f32 :=
  fun i => ∑ k : Fin 4096, x (ix2 (i 0) k) * phi (ix2 (i 1) k)

theorem product_apply (x : FVec Ideal ⟨2, ![16384, 4096]⟩ .f32) (phi : FVec Ideal ⟨2, ![1024, 4096]⟩ .f32)
    (r : Fin 16384) (c : Fin 1024) :
    product x phi (ix2 r c) = ∑ k : Fin 4096, x (ix2 r k) * phi (ix2 c k) := rfl

end Cert.RowsAgainstRows

end
-- ==== Proof.KernelResult.lean ====
/-
  The kernel's result array is `x · Φᵀ`.

  At the ideal instance narrowing to bf16 is the identity, so grid point `t` leaves in its output block the product
  of rows 512·t … 512·t + 511 of `x` with the rows of `Φ`: entry `(r, q)` of the block is
  `∑ k, x(512·t + r, k) · Φ(q, k)`, which is entry `(512·t + r, q)` of `x · Φᵀ`. Point `t` writes its block back to
  rows 512·t … 512·t + 511 of the result, and the 32 points' blocks cover all 16384 rows; so the result array is
  `x · Φᵀ` everywhere.
-/
import proofs.«171840_j8409545965787_2_alg».proof.Proof.Gen.KernelIdeal.Value
import proofs.«171840_j8409545965787_2_alg».proof.Proof.KernelBlock
import proofs.«171840_j8409545965787_2_alg».proof.Proof.LibGram
import proofs.«171840_j8409545965787_2_alg».proof.Proof.RowsAgainstRows
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Result

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.RowsAgainstRows (product product_apply)

/-! ## One block, entry by entry -/

/-- Entry `(r, q)` of the block the body stores: the sum over the 4096 columns of row `r` of the row block times
    row `q` of the second operand (narrowing is the identity on the extended reals; the accumulator is zero). -/
theorem block_entry (x0 : Vec Ideal S512x4096 .f32) (x1 : Vec Ideal S1024x4096 .bf16) (r : Fin 512) (q : Fin 1024) :
    k0_pay1 (truncf .bf16 x0 Facts₀.bitsLt_bf16_f32) x1 (ix2 r q) = ∑ k : Fin 4096, x0 (ix2 r k) * x1 (ix2 q k) := by
  unfold k0_pay1
  rw [shapeCast_self]
  exact Cert.LibGram.matmul_transposedRhs_zero_apply (M := 512) (K := 4096) (N := 1024) none
    (truncf .bf16 x0 Facts₀.bitsLt_bf16_f32) x1 r q

/-- A block whose rows are rows `row r` of `X`, against an operand whose rows are the rows of `P`, holds the entries
    `(row r, q)` of `X · Pᵀ`. -/
theorem block_is_product (x0 : Vec Ideal S512x4096 .f32) (x1 : Vec Ideal S1024x4096 .bf16)
    (X : FVec Ideal ⟨2, ![16384, 4096]⟩ .f32) (P : FVec Ideal ⟨2, ![1024, 4096]⟩ .f32) (row : Fin 512 → Fin 16384)
    (h0 : ∀ (r : Fin 512) (k : Fin 4096), x0 (ix2 r k) = X (ix2 (row r) k))
    (h1 : ∀ (q : Fin 1024) (k : Fin 4096), x1 (ix2 q k) = P (ix2 q k)) (r : Fin 512) (q : Fin 1024) :
    k0_pay1 (truncf .bf16 x0 Facts₀.bitsLt_bf16_f32) x1 (ix2 r q) = product X P (ix2 (row r) q) := by
  rw [block_entry, product_apply]
  exact Finset.sum_congr rfl fun k _ => by rw [h0, h1]

/-! ## From blocks to the array -/

variable (m : (ℓ : Loc nD τ sig) → Buf (Elt Ideal) ℓ) (ρ : Dev nD → PrngReg)

/-- The region finds the second operand's array at `Φ`: the one operation before it narrows `Φ` to bf16, the
    identity on the extended reals. -/
theorem operand_array (c : Dev nD) :
    (V m c main_v0 : S1024x4096.Idx → EReal) = m ((c : Thread nD τ).loc main_arg1) := by
  dsimp only [Gen.V, Gen.hostOps0]
  after_results
  rfl

/-- The printed index maps over the grid: at point `t` the row block and the output block are block `t` along the
    rows, the second operand's block is the whole array. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of block `t` is row `512·t + r` of the array. -/
def rowOf (t : Fin cfg0.N) (r : Fin 512) : Fin 16384 :=
  ⟨t.val * 512 + r.val, by have := t.isLt; have := r.isLt; have hN : cfg0.N = 32 := N_0; omega⟩

/-- What point `t` writes back is block `t` of `x · Φᵀ`. -/
theorem flushed_eq (c : Dev nD) (t : Fin cfg0.N) :
    (dats m 0 c).flushed 2 t = ((cfg0.win 2).blk t).view.read (Elt Ideal)
      (product (m ((c : Thread nD τ).loc main_arg0)) (m ((c : Thread nD τ).loc main_arg1))) := by
  rw [flushed2_A, Cert.KernelIdeal.Block.block_value]
  obtain ⟨e00, e01, e10, e11, e20, e21⟩ := block_indices t
  funext j
  obtain ⟨r, q, rfl⟩ : ∃ (r : Fin 512) (q : Fin 1024), j = ix2 r q := ⟨j 0, j 1, eq_ix2 j⟩
  show k0_pay1 (truncf .bf16 (iblk m c 0 t) Facts₀.bitsLt_bf16_f32) (iblk m c 1 t) (ix2 r q)
    = product (m ((c : Thread nD τ).loc main_arg0)) (m ((c : Thread nD τ).loc main_arg1)) (((cfg0.win 2).blk t).view.emb (ix2 r q))
  refine (block_is_product (iblk m c 0 t) (iblk m c 1 t) (m ((c : Thread nD τ).loc main_arg0))
    (m ((c : Thread nD τ).loc main_arg1)) (rowOf t) ?_ ?_ r q).trans ?_
  · intro r k
    show V m c main_arg0 (((cfg0.win 0).blk t).view.emb (ix2 r k)) = _
    rw [V_main_arg0]
    refine congrArg _ (funext fun a => Fin.ext ?_)
    match a with
    | ⟨0, _⟩ => show win0_0.index t (0 : Fin 2) * 512 + 1 * r.val = t.val * 512 + r.val; omega
    | ⟨1, _⟩ => show win0_0.index t (1 : Fin 2) * 4096 + 1 * k.val = k.val; omega
  · intro q k
    show V m c main_v0 (((cfg0.win 1).blk t).view.emb (ix2 q k)) = _
    rw [operand_array]
    refine congrArg _ (funext fun a => Fin.ext ?_)
    match a with
    | ⟨0, _⟩ => show win0_1.index t (0 : Fin 2) * 1024 + 1 * q.val = q.val; omega
    | ⟨1, _⟩ => show win0_1.index t (1 : Fin 2) * 4096 + 1 * k.val = k.val; omega
  · refine congrArg _ (funext fun a => Fin.ext ?_)
    match a with
    | ⟨0, _⟩ => show t.val * 512 + r.val = win0_2.index t (0 : Fin 2) * 512 + 1 * r.val; omega
    | ⟨1, _⟩ => show q.val = win0_2.index t (1 : Fin 2) * 1024 + 1 * q.val; omega

/-- An index of the result is in point `t`'s block iff each coordinate is in the block's range on its axis. -/
theorem mem_block (t : Fin cfg0.N) (i : S16384x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v1).slice (win0_2.rect t)).set ↔ _
  rw [View.set_slice_whole, Rect.mem_set_unit]
  exact Iff.rfl

/-- Every index of the result lies in the block of the point its row falls in. -/
theorem covered (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  have hN : cfg0.N = 32 := N_0
  let t : Fin cfg0.N := ⟨(i 0).val / 512, by omega⟩
  obtain ⟨e00, e01, e10, e11, e20, e21⟩ := block_indices t
  have ht : t.val = (i 0).val / 512 := rfl
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The result array after the run is `x · Φᵀ`. -/
theorem final (c : Dev nD) : (dats m 0 c).arrAt 2 cfg0.N
    = product (m ((c : Thread nD τ).loc main_arg0)) (m ((c : Thread nD τ).loc main_arg1)) :=
  (dats m 0 c).arrAt_eq_of_cover 2 _ (fun t _ => flushed_eq m c t) covered

/-- The kernel's run: the result at `x · Φᵀ`, the arguments unchanged. -/
theorem run : θ_run defs (onTc (τ := τ) (main (F := Ideal))) ⟨m, fun _ => 0, ρ⟩ fun r => ∀ c : Dev nD,
      r.2.mem ((c : Thread nD τ).loc main_v1)
        = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Result

end
-- ==== Proof.ReferenceProduct.lean ====
/-
  The reference's result is `x · Φᵀ`.

  The reference transposes `Φ` to 4096 × 1024 and multiplies `x` by it, contracting `x`'s columns with the
  transpose's rows. Entry `(i, j)` of that product is the sum over `k` of `x(i, k)` times the transpose at `(k, j)`,
  and the transpose at `(k, j)` is `Φ(j, k)`: the specification's sum, term by term.
-/
import proofs.«171840_j8409545965787_2_alg».proof.Proof.Gen.ReferenceIdeal.Read
import proofs.«171840_j8409545965787_2_alg».proof.Proof.RowsAgainstRows

noncomputable section

namespace Cert.ReferenceIdeal.RefValue

open Cert.ReferenceIdeal Idealize.ShloMosaic Idealize.ShloMosaic.ValueIdx

/-- The left factor of term `k` of entry `i` sits at row `i 0`, column `k` of `x`. -/
theorem left_index (i : S16384x1024.Idx) (k : Fin 4096) : Read.lidx_main_v1 i k = ix2 (i 0) k :=
  funext fun a => Fin.ext (by
    match a with
    | ⟨0, _⟩ => rfl
    | ⟨1, _⟩ => rfl)

/-- The right factor of term `k` of entry `i`, read through the transpose, sits at row `i 1`, column `k` of `Φ`. -/
theorem right_index (i : S16384x1024.Idx) (k : Fin 4096) : Read.idx_main_v0 (Read.ridx_main_v1 i k) = ix2 (i 1) k :=
  funext fun a => Fin.ext (by
    match a with
    | ⟨0, _⟩ => rfl
    | ⟨1, _⟩ => rfl)

/-- The reference's product of `x` with the transpose of `Φ` is `x · Φᵀ`, entry by entry. -/
theorem result_eq (x : (⟨S16384x4096, .f32⟩ : BufTy).Contents (Elt Ideal)) (phi : (⟨S1024x4096, .f32⟩ : BufTy).Contents (Elt Ideal)) :
    Read.val_main_v1 (F := Ideal) x phi = Cert.RowsAgainstRows.product x phi := by
  funext i
  rw [Read.val_main_v1_apply]
  refine Finset.sum_congr rfl fun k _ => ?_
  rw [Read.val_main_v0_apply, left_index, right_index]
  rfl

end Cert.ReferenceIdeal.RefValue

end
-- ==== Proof.lean ====
/-
  The kernel and the reference both compute `x · Φᵀ`, the rows of `x` (16384 × 4096) against the rows of `Φ`
  (1024 × 4096): entry `(i, j)` is `∑ k < 4096, x(i, k) · Φ(j, k)` on the extended reals.

  The kernel narrows `Φ` to bf16 before the grid and, at each of 32 grid points, narrows one block of 512 rows of `x`
  through a scratch buffer and multiplies it against all of `Φ`, contracting both operands' last axes, into a zero
  accumulator; the point's block is written back to the same 512 rows of the result. The reference transposes `Φ`
  and multiplies `x` by the transpose. At the ideal instance narrowing is the identity, so both are the same sum,
  term by term: no law beyond the definition of a matrix product is used, and the inputs' finiteness is not needed.

  The three programs' runs are the generated ones; the idealization rewrote nothing.
-/
import proofs.«171840_j8409545965787_2_alg».proof.Defs
import proofs.«171840_j8409545965787_2_alg».proof.Proof.Gen.Kernel
import proofs.«171840_j8409545965787_2_alg».proof.Proof.Gen.Kernel.Skeleton
import proofs.«171840_j8409545965787_2_alg».proof.Proof.Gen.Kernel.Launch
import proofs.«171840_j8409545965787_2_alg».proof.Proof.Gen.Kernel.Points
import proofs.«171840_j8409545965787_2_alg».proof.Proof.Gen.Kernel.Frame
import proofs.«171840_j8409545965787_2_alg».proof.Proof.Gen.KernelIdeal
import proofs.«171840_j8409545965787_2_alg».proof.Proof.Gen.KernelIdeal.Skeleton
import proofs.«171840_j8409545965787_2_alg».proof.Proof.Gen.KernelIdeal.Launch
import proofs.«171840_j8409545965787_2_alg».proof.Proof.Gen.KernelIdeal.Points
import proofs.«171840_j8409545965787_2_alg».proof.Proof.Gen.KernelIdeal.Frame
import proofs.«171840_j8409545965787_2_alg».proof.Proof.Gen.KernelIdeal.Value
import proofs.«171840_j8409545965787_2_alg».proof.Proof.Gen.ReferenceIdeal
import proofs.«171840_j8409545965787_2_alg».proof.Proof.Gen.ReferenceIdeal.Run
import proofs.«171840_j8409545965787_2_alg».proof.Proof.Gen.ReferenceIdeal.Read
import proofs.«171840_j8409545965787_2_alg».proof.Proof.Gen.Pre_finite_inputs
import proofs.«171840_j8409545965787_2_alg».proof.Proof.KernelResult
import proofs.«171840_j8409545965787_2_alg».proof.Proof.ReferenceProduct
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel :=
  fun m ρ _ => Cert.Kernel.Gen.frame m ρ

/-- So does the kernel read at the ideal instance. -/
theorem frame_kernel_ideal : Cert.frame_KernelIdeal :=
  fun m ρ _ => Cert.KernelIdeal.Gen.frame m ρ

/-- The reference's run, with what it says of the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- Both runs end with the result at `x · Φᵀ` of the (agreeing) arguments. -/
theorem algebraic : Cert.algebraic_KernelIdeal_ReferenceIdeal := by
  intro m ρ m' ρ' _ hagree
  refine ⟨fun c => Cert.RowsAgainstRows.product
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
